-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S32x32 : Shape := ⟨2, ![32, 32]⟩
abbrev S1x32 : Shape := ⟨2, ![1, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S1000000x32 .f32) (main_arg1 : FVec F S32x32 .f32) (main_arg2 : FVec F S1x32 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Kernel.lean ====
abbrev S1000000x32 : Shape := ⟨2, ![1000000, 32]⟩
abbrev S32x32 : Shape := ⟨2, ![32, 32]⟩
abbrev S1x32 : Shape := ⟨2, ![1, 32]⟩
abbrev S32x1000000 : Shape := ⟨2, ![32, 1000000]⟩
abbrev S32x114688 : Shape := ⟨2, ![32, 114688]⟩
abbrev S32x1 : Shape := ⟨2, ![32, 1]⟩

abbrev nBuf : Space → Nat
  | .hbm => 6
  | .vmem => 6
  | .smem => 0
  | _ => 0

abbrev bufTy : (tb : Table) → Fin (tcTables nBuf tb) → BufTy
  | .hbm, ⟨0, _⟩ => ⟨S1000000x32, .f32⟩
  | .hbm, ⟨1, _⟩ => ⟨S32x32, .f32⟩
  | .hbm, ⟨2, _⟩ => ⟨S1x32, .f32⟩
  | .hbm, ⟨3, _⟩ => ⟨S32x1000000, .f32⟩
  | .hbm, ⟨4, _⟩ => ⟨S32x1000000, .f32⟩
  | .hbm, ⟨5, _⟩ => ⟨S1000000x32, .f32⟩
  | .local _ .vmem, ⟨0, _⟩ => ⟨S32x114688, .f32⟩
  | .local _ .vmem, ⟨1, _⟩ => ⟨S32x114688, .f32⟩
  | .local _ .vmem, ⟨2, _⟩ => ⟨S32x32, .f32⟩
  | .local _ .vmem, ⟨3, _⟩ => ⟨S1x32, .f32⟩
  | .local _ .vmem, ⟨4, _⟩ => ⟨S32x114688, .f32⟩
  | .local _ .vmem, ⟨5, _⟩ => ⟨S32x114688, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x114688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x114688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1000000x32_S32x1000000_1_0 : S1000000x32.Transposes [1, 0] S32x1000000
  inb_S32x32_S32x32_0_0 : ∀ a, (![0, 0] : Fin 2 → Nat) a + S32x32.size a ≤ S32x32.size a
  h_S32x32 : 0 < S32x32.numel
  inb_S32x114688_S32x114688_0_0 : ∀ a, (![0, 0] : Fin 2 → Nat) a + S32x114688.size a ≤ S32x114688.size a
  h_S32x114688 : 0 < S32x114688.numel
  shapeCasts_S32x114688_S32x114688 : S32x114688.ShapeCasts S32x114688
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  broadcasts_S32x1_S32x114688 : S32x1.Broadcasts S32x114688
  transposes_S32x1000000_S1000000x32_1_0 : S32x1000000.Transposes [1, 0] S1000000x32
  dot_S32x32_S32x114688_S32x114688_0_0_1_1_n_n_wf : DotDims.WF S32x32 S32x114688 S32x114688 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x114688.size a < S32x1000000.size a
  hwx0_0 : ∀ i : grid0.Coords, EltTy.bits .f32 = 32 ∨ (Rect.unit (s := S32x1000000) (fun a => cc0_transform_0 i a * S32x114688.size a) (fun a => (Pipeline.Clip.of (cc0_transform_0 i a) (S32x114688.size a) (S32x1000000.size a)).extent (S32x114688.size a)) fun a => Pipeline.Clip.inb (Pipeline.Clip.ok_of (hstart0_0 i a))).WholeWords (EltTy.packing .f32)
  hwxs0_0 : ∀ i : grid0.Coords, EltTy.bits .f32 = 32 ∨ (Rect.unit (s := S32x114688) (fun _ => 0) (fun a => (Pipeline.Clip.of (cc0_transform_0 i a) (S32x114688.size a) (S32x1000000.size a)).extent (S32x114688.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x114688.size a < S32x1000000.size a
  hwx0_3 : ∀ i : grid0.Coords, EltTy.bits .f32 = 32 ∨ (Rect.unit (s := S32x1000000) (fun a => cc0_transform_3 i a * S32x114688.size a) (fun a => (Pipeline.Clip.of (cc0_transform_3 i a) (S32x114688.size a) (S32x1000000.size a)).extent (S32x114688.size a)) fun a => Pipeline.Clip.inb (Pipeline.Clip.ok_of (hstart0_3 i a))).WholeWords (EltTy.packing .f32)
  hwxs0_3 : ∀ i : grid0.Coords, EltTy.bits .f32 = 32 ∨ (Rect.unit (s := S32x114688) (fun _ => 0) (fun a => (Pipeline.Clip.of (cc0_transform_3 i a) (S32x114688.size a) (S32x1000000.size a)).extent (S32x114688.size a)) fun a => (Nat.zero_add _).trans_le (Pipeline.Clip.extent_le (Pipeline.Clip.ok_of (hstart0_3 i a)))).WholeWords (EltTy.packing .f32)

variable [Facts₀]

def dot_S32x32_S32x114688_S32x114688_0_0_1_1_n_n : DotDims S32x32 S32x114688 S32x114688 where
  lhsContracting := [0]
  rhsContracting := [0]
  lhsNonContracting := [1]
  rhsNonContracting := [1]
  lhsBatch := []
  rhsBatch := []
  wf := dot_S32x32_S32x114688_S32x114688_0_0_1_1_n_n_wf

abbrev win0_0 : Pipeline.Window sig grid0 :=
  Pipeline.Window.ofSpecClip (Memref.whole main_v0) S32x114688.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S32x114688.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S32x32 : Shape := ⟨2, ![32, 32]⟩
abbrev S1x32 : Shape := ⟨2, ![1, 32]⟩

abbrev nBuf : Space → Nat
  | .hbm => 6
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S32x32, .f32⟩
  | .hbm, ⟨2, _⟩ => ⟨S1x32, .f32⟩
  | .hbm, ⟨3, _⟩ => ⟨S1000000x32, .f32⟩
  | .hbm, ⟨4, _⟩ => ⟨S1000000x32, .f32⟩
  | .hbm, ⟨5, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S1x32_S1000000x32_0_1 : S1x32.BroadcastsInDim S1000000x32 (![0, 1] : Fin 2 → Fin S1000000x32.rank)
  dot_S1000000x32_S32x32_S1000000x32_1_0_0_1_n_n_wf : DotDims.WF S1000000x32 S32x32 S1000000x32 [1] [0] [0] [1] [] []

variable [Facts₀]

def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf

class Facts : Prop extends Facts₀ where

variable [Facts]
-- ==== Proof.BodyK.lean ====
/-
  The body of the pointwise linear layer, run on whole staging buffers, and the frame of the program around it.

  The region walks nine column blocks of the transposed activations `xᵀ : [32, 1000000]`, each 114688 columns
  wide; eight blocks lie inside the array and the ninth overhangs it, so only its first 82496 columns are
  columns of `xᵀ` and the rest of its staging buffer holds words nothing names. At each block the body loads
  the weights `W : [32, 32]`, the block, and the bias row `b : [1, 32]`, and stores
  `Wᵀ · block + bᵀ` (the bias column broadcast along the block) into the result's staging buffer, whole.

  Stated here for any interpretation of the floats: the body's triple on whole buffers (what it leaves in
  the result's buffer is the one payload of the three loads), the three input buffers found at their blocks
  at every point and left as found, and — saying nothing of what the body leaves in the result's buffer,
  which beyond the array's end depends on the unnamed words — that every weakly fair execution of the
  program terminates without a fault with the three argument arrays as they were.
-/
import proofs.«137628_g37271726195534_cont_8to1_b_778_25_alg».proof.Proof.Gen.Kernel.Frame
import proofs.«137628_g37271726195534_cont_8to1_b_778_25_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

/-- The whole weight buffer, the whole block buffer, the whole bias buffer: every access of the body is through one of these. -/
abbrev rW : Rect S32x32 := Rect.unit (s := S32x32) ![0, 0] S32x32.size inb_S32x32_S32x32_0_0
abbrev rX : Rect S32x114688 := Rect.unit (s := S32x114688) ![0, 0] S32x114688.size inb_S32x114688_S32x114688_0_0
abbrev rB : Rect S1x32 := Rect.unit (s := S1x32) ![0, 0] S1x32.size inb_S1x32_S1x32_0_0

theorem zero_offsets : (![0, 0] : Fin 2 → Nat) = fun _ => 0 := funext fun a => by fin_cases a <;> rfl

/-- What the one store leaves in the result's buffer, from the contents of the three input buffers. -/
def stored (xX : Vec F S32x114688 .f32) (xW : Vec F S32x32 .f32) (xB : Vec F S1x32 .f32) : Vec F S32x114688 .f32 :=
  View.canon [⟨rX, k0_pay1 (View.ld xW rW) (View.ld xX rX) (View.ld xB rB)⟩]

/-- The store is of the whole buffer: it leaves its payload, `Wᵀ · block + bᵀ` of the buffers' contents. -/
theorem stored_eq (xX : Vec F S32x114688 .f32) (xW : Vec F S32x32 .f32) (xB : Vec F S1x32 .f32) :
    stored xX xW xB = k0_pay1 xW xX xB := by
  unfold stored
  rw [View.canon_unit_zero zero_offsets]
  simp only [View.ld_unit_zero (S := S32x32) zero_offsets, View.ld_unit_zero (S := S32x114688) zero_offsets,
    View.ld_unit_zero (S := S1x32) zero_offsets]

set_option maxHeartbeats 1000000 in
/-- The body on whole staging buffers — the block's at `xX`, the weights' at `xW`, the bias's at `xB`, the
    result's at anything — runs to the continuation with the three inputs as they were and the result's buffer at
    `stored` of them. -/
theorem sound_kernel (c : Dev nD) (E : Set ℕ) (i : grid0.Coords)
    (arg1 : Memref sig .tc .vmem S32x114688 .f32) (harg1 : arg1.IsWhole)
    (arg2 : Memref sig .tc .vmem S32x32 .f32) (harg2 : arg2.IsWhole)
    (arg3 : Memref sig .tc .vmem S1x32 .f32) (harg3 : arg3.IsWhole)
    (arg4 : Memref sig .tc .vmem S32x114688 .f32) (harg4 : arg4.IsWhole)
    (xX : Vec F S32x114688 .f32) (xW : Vec F S32x32 .f32) (xB : Vec F S1x32 .f32) (K : PUnit → sProp 𝕄) :
    iprop(owns (c : Thread nD τ) arg1 fullShare xX ∗ owns (c : Thread nD τ) arg2 fullShare xW ∗ owns (c : Thread nD τ) arg3 fullShare xB
        ∗ (∃ d, owns (c : Thread nD τ) arg4 fullShare d)
        ∗ (iprop(owns (c : Thread nD τ) arg1 fullShare xX ∗ owns (c : Thread nD τ) arg2 fullShare xW ∗ owns (c : Thread nD τ) arg3 fullShare xB
            ∗ owns (c : Thread nD τ) arg4 fullShare (stored xX xW xB)) -∗ K ⟨⟩))
      ⊢ wp frame (wpE (defs₀ (F := F)) Variants.none c none) E (cc0__pointwise_mm_block i arg1 harg1 arg2 harg2 arg3 harg3 arg4 harg4) K := by
  simp only [cc0__pointwise_mm_block_eq_skeleton]; unfold cc0__pointwise_mm_block_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero zero_offsets inb_S32x114688_S32x114688_0_0 y⟩)

/-! ## The proof data -/

/-- The one window whose contents after the body a frame need not name: the result's. -/
def forgets0 : Fin 4 → Bool := fun w => w.val == 3

/-- Contents for the result's buffer that say nothing. -/
abbrev blank : Fin cfg0.N → S32x114688.Idx → Elt F .f32 := fun _ _ => Scalar.ofBits .f32 0#32

-- What the proof data say the body leaves in the result's buffer at each point: a parameter, so that a frame can
-- leave it blank and a value proof can name it.
variable (out3 : Fin cfg0.N → S32x114688.Idx → Elt F .f32)

/-- The proof data of the pipeline on core `c`: the arrays as the region finds them; after the body at point
    `t` the block's buffer at the block of `xᵀ` on the columns inside the array (a word of the proof's choosing
    beyond them: nothing reads it), the weights' and the bias's buffers at their arrays, and the result's buffer at `out3 t`. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => out3 t
  Φ _ := Pipeline.ΦA spec0 c
  q _ := fullShare
  owed _ := 0

theorem A_eq (c : Dev nD) (w : Fin cfg0.W) : (dats m out3 0 c).A w = V m c (Pipeline.arrRef spec0 w) := by
  dsimp only [dats]

theorem after0_0 (c : Dev nD) (t : Fin cfg0.N) :
    (dats m out3 0 c).after 0 t = win0_0.fill (grid0.coords t) (fun _ => Scalar.ofBits .f32 0#32) (iblk m c 0 t) := by dsimp only [dats]
theorem after0_1 (c : Dev nD) (t : Fin cfg0.N) : (dats m out3 0 c).after 1 t = iblk m c 1 t := by dsimp only [dats]
theorem after0_2 (c : Dev nD) (t : Fin cfg0.N) : (dats m out3 0 c).after 2 t = iblk m c 2 t := by dsimp only [dats]
theorem after0_3 (c : Dev nD) (t : Fin cfg0.N) : (dats m out3 0 c).after 3 t = out3 t := by dsimp only [dats]

/-- The block's buffer is fetched at every point: the body finds the block of `xᵀ` on the columns inside the array
    and, beyond them, whatever the buffer held. -/
theorem before0_0 (c : Dev nD) (t : Fin cfg0.N) (d) :
    (dats m out3 0 c).before 0 t d = win0_0.fill (grid0.coords t) d (iblk m c 0 t) := by
  unfold Dat.before; rw [if_pos (fetch0_0 t)]
  unfold Dat.fetched Dat.blockOf iblk; rw [A_eq]
/-- The weights' and the bias's buffers hold their arrays at every point, fetched there or not. -/
theorem before0_1 (c : Dev nD) (t : Fin cfg0.N) (d) : (dats m out3 0 c).before 1 t d = iblk m c 1 t :=
  before0_1_of m (dats m out3 0 c) (A_eq m out3 c 1) (after0_1 m out3 c) t d
theorem before0_2 (c : Dev nD) (t : Fin cfg0.N) (d) : (dats m out3 0 c).before 2 t d = iblk m c 2 t :=
  before0_2_of m (dats m out3 0 c) (A_eq m out3 c 2) (after0_2 m out3 c) t d

/-- The result's buffer is written back at every point: the body finds it at contents nothing names. -/
theorem before0_3 (c : Dev nD) (t : Fin cfg0.N) (d) : (dats m out3 0 c).before 3 t d = d :=
  (dats m out3 0 c).before_out_reset 3 rfl t
    (by rcases Nat.eq_zero_or_pos t.val with h | h
        · exact .inl h
        · exact .inr ⟨by omega, flush0_3 _⟩) d

/-! ## The body obligation, the result's buffer forgotten -/

/-- What the body is called with at point `t`, -/
def bodyPre (c : Dev nD) (t : Fin cfg0.N) : sProp 𝕄 :=
  iprop((dats m out3 0 c).Φ t.castSucc ∗ (dats m out3 0 c).owesAt () t.castSucc
    ∗ (∃ d, owns (c : Thread nD τ) (st0_0 t) fullShare ((dats m out3 0 c).before 0 t d))
    ∗ (∃ d, owns (c : Thread nD τ) (st0_1 t) fullShare ((dats m out3 0 c).before 1 t d))
    ∗ (∃ d, owns (c : Thread nD τ) (st0_2 t) fullShare ((dats m out3 0 c).before 2 t d))
    ∗ (∃ X, owns (c : Thread nD τ) (st0_3 t) fullShare X))

/-- and what it returns: the block's buffer stated on the columns inside the array only. -/
def bodyPost (c : Dev nD) (t : Fin cfg0.N) : sProp 𝕄 :=
  iprop((dats m out3 0 c).Φ t.succ ∗ (dats m out3 0 c).owesAt () t.succ
    ∗ (∃ d, owns (c : Thread nD τ) (st0_0 t) fullShare
        ((cfg0.win 0).fill (cfg0.grid.coords t) d ((cfg0.win 0).cut (cfg0.grid.coords t) ((dats m out3 0 c).after 0 t))))
    ∗ owns (c : Thread nD τ) (st0_1 t) fullShare ((dats m out3 0 c).after 1 t)
    ∗ owns (c : Thread nD τ) (st0_2 t) fullShare ((dats m out3 0 c).after 2 t)
    ∗ (∃ X, owns (c : Thread nD τ) (st0_3 t) fullShare X))

/-- The body at any point: the three input buffers hold what `before0_W` says, so `sound_kernel` applies; they are
    left as found, which on the columns inside the array is the block again. -/
theorem sound_body (c : Dev nD) (t : Fin cfg0.N) :
    bodyPre m out3 c t ⊢ wp frame (wpE (defs₀ (F := F)) Variants.none c none) Set.univ (bodyAt0 t) (fun _ => bodyPost m out3 c t) := by
  unfold bodyPre bodyPost bodyAt0
  simp only [before0_0, before0_1, before0_2]
  rw [show (dats m out3 0 c).Φ t.succ = (dats m out3 0 c).Φ t.castSucc from rfl,
    show (dats m out3 0 c).owesAt () t.succ = (dats m out3 0 c).owesAt () t.castSucc from rfl,
    after0_0, after0_1, after0_2]
  iintro ⟨HΦ, Ho, ⟨%d0, H0⟩, ⟨%d1, H1⟩, ⟨%d2, H2⟩, ⟨%d3, H3⟩⟩
  iapply (sound_kernel c Set.univ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win0_0.cut (grid0.coords t) (win0_0.fill (grid0.coords t) (fun _ => Scalar.ofBits .f32 0#32) (iblk m c 0 t)) = iblk m c 0 t :=
    win0_0.cut_fill _ _ _
  isplitl [H0]
  · iexists d0
    change _ ⊢ owns (c : Thread nD τ) (st0_0 t) fullShare (win0_0.fill (grid0.coords t) d0
      (win0_0.cut (grid0.coords t) (win0_0.fill (grid0.coords t) (fun _ => Scalar.ofBits .f32 0#32) (iblk m c 0 t))))
    rw [hx]; try iexact H0
  isplitl [H1]; · iexact H1
  isplitl [H2]; · iexact H2
  iexists _; iexact H3

/-- The library's body obligation at every point, the result's window forgotten. -/
theorem body_obligation (c : Dev nD) :
    BodyObligationLoose (dats (F := F) m out3 0 c) (defs₀ (F := F)) Variants.none () Set.univ forgets0 := fun t => by
  rw [bigSep_W0, bigSep_W0]
  exact sound_body m out3 c t

/-! ## The run and the frame -/

/-- The one buffer the line after the region writes: the result transposed back. -/
def T0 : Finset (Ref sig .tc) := {main_v2}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of the program terminates without a fault; the three input arrays of the region end
    as the region found them and every other unscoped buffer the last line does not write as it was at the region's
    entry. Of the result's array only that its blocks were overwritten. -/
theorem run_main : θ_run defs (onTc (τ := τ) (main (F := F))) (s₀ m ρ)
    (Pipeline.RDat.FramePostR (cfgs 0) (fun c => (dats m blank 0 c).toRForget forgets0) T0 (V m)) :=
  Pipeline.RDat.θ_run_frame_around_T cfgs (0 : Fin 1) launch0 defs₀ Variants.none (fun c => (dats m blank 0 c).toRForget forgets0) T0 m ρ main
    (hbody := fun c => (body_obligation m blank c).toRForget) (hshare := fun c => ((dats m blank 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m blank) (hΦ := fun _ _ => rfl)

/-- The frame: the program runs to the end, faults nowhere, and leaves its three arguments unchanged — the activations
    because no line writes them, the weights and the bias because the region only reads them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
      (Eq.mp (congrFun (((dats m blank 0 c).toRForget forgets0).ArrAt_in 1 rfl _) _) ((h c).1 1)).trans ((A_eq m blank c 1).trans (V_main_arg1 m c)),
      (Eq.mp (congrFun (((dats m blank 0 c).toRForget forgets0).ArrAt_in 2 rfl _) _) ((h c).1 2)).trans ((A_eq m blank c 2).trans (V_main_arg2 m c))⟩)
    (run_main m ρ)

end Cert.Kernel.Body

end
-- ==== Proof.BodyKI.lean ====
/-
  The body of the pointwise linear layer, run on whole staging buffers, and the frame of the program around it.

  The region walks nine column blocks of the transposed activations `xᵀ : [32, 1000000]`, each 114688 columns
  wide; eight blocks lie inside the array and the ninth overhangs it, so only its first 82496 columns are
  columns of `xᵀ` and the rest of its staging buffer holds words nothing names. At each block the body loads
  the weights `W : [32, 32]`, the block, and the bias row `b : [1, 32]`, and stores
  `Wᵀ · block + bᵀ` (the bias column broadcast along the block) into the result's staging buffer, whole.

  Stated here for any interpretation of the floats: the body's triple on whole buffers (what it leaves in
  the result's buffer is the one payload of the three loads), the three input buffers found at their blocks
  at every point and left as found, and — saying nothing of what the body leaves in the result's buffer,
  which beyond the array's end depends on the unnamed words — that every weakly fair execution of the
  program terminates without a fault with the three argument arrays as they were.
-/
import proofs.«137628_g37271726195534_cont_8to1_b_778_25_alg».proof.Proof.Gen.KernelIdeal.Frame
import proofs.«137628_g37271726195534_cont_8to1_b_778_25_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

/-- The whole weight buffer, the whole block buffer, the whole bias buffer: every access of the body is through one of these. -/
abbrev rW : Rect S32x32 := Rect.unit (s := S32x32) ![0, 0] S32x32.size inb_S32x32_S32x32_0_0
abbrev rX : Rect S32x114688 := Rect.unit (s := S32x114688) ![0, 0] S32x114688.size inb_S32x114688_S32x114688_0_0
abbrev rB : Rect S1x32 := Rect.unit (s := S1x32) ![0, 0] S1x32.size inb_S1x32_S1x32_0_0

theorem zero_offsets : (![0, 0] : Fin 2 → Nat) = fun _ => 0 := funext fun a => by fin_cases a <;> rfl

/-- What the one store leaves in the result's buffer, from the contents of the three input buffers. -/
def stored (xX : Vec F S32x114688 .f32) (xW : Vec F S32x32 .f32) (xB : Vec F S1x32 .f32) : Vec F S32x114688 .f32 :=
  View.canon [⟨rX, k0_pay1 (View.ld xW rW) (View.ld xX rX) (View.ld xB rB)⟩]

/-- The store is of the whole buffer: it leaves its payload, `Wᵀ · block + bᵀ` of the buffers' contents. -/
theorem stored_eq (xX : Vec F S32x114688 .f32) (xW : Vec F S32x32 .f32) (xB : Vec F S1x32 .f32) :
    stored xX xW xB = k0_pay1 xW xX xB := by
  unfold stored
  rw [View.canon_unit_zero zero_offsets]
  simp only [View.ld_unit_zero (S := S32x32) zero_offsets, View.ld_unit_zero (S := S32x114688) zero_offsets,
    View.ld_unit_zero (S := S1x32) zero_offsets]

set_option maxHeartbeats 1000000 in
/-- The body on whole staging buffers — the block's at `xX`, the weights' at `xW`, the bias's at `xB`, the
    result's at anything — runs to the continuation with the three inputs as they were and the result's buffer at
    `stored` of them. -/
theorem sound_kernel (c : Dev nD) (E : Set ℕ) (i : grid0.Coords)
    (arg1 : Memref sig .tc .vmem S32x114688 .f32) (harg1 : arg1.IsWhole)
    (arg2 : Memref sig .tc .vmem S32x32 .f32) (harg2 : arg2.IsWhole)
    (arg3 : Memref sig .tc .vmem S1x32 .f32) (harg3 : arg3.IsWhole)
    (arg4 : Memref sig .tc .vmem S32x114688 .f32) (harg4 : arg4.IsWhole)
    (xX : Vec F S32x114688 .f32) (xW : Vec F S32x32 .f32) (xB : Vec F S1x32 .f32) (K : PUnit → sProp 𝕄) :
    iprop(owns (c : Thread nD τ) arg1 fullShare xX ∗ owns (c : Thread nD τ) arg2 fullShare xW ∗ owns (c : Thread nD τ) arg3 fullShare xB
        ∗ (∃ d, owns (c : Thread nD τ) arg4 fullShare d)
        ∗ (iprop(owns (c : Thread nD τ) arg1 fullShare xX ∗ owns (c : Thread nD τ) arg2 fullShare xW ∗ owns (c : Thread nD τ) arg3 fullShare xB
            ∗ owns (c : Thread nD τ) arg4 fullShare (stored xX xW xB)) -∗ K ⟨⟩))
      ⊢ wp frame (wpE (defs₀ (F := F)) Variants.none c none) E (cc0__pointwise_mm_block i arg1 harg1 arg2 harg2 arg3 harg3 arg4 harg4) K := by
  simp only [cc0__pointwise_mm_block_eq_skeleton]; unfold cc0__pointwise_mm_block_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero zero_offsets inb_S32x114688_S32x114688_0_0 y⟩)

/-! ## The proof data -/

/-- The one window whose contents after the body a frame need not name: the result's. -/
def forgets0 : Fin 4 → Bool := fun w => w.val == 3

/-- Contents for the result's buffer that say nothing. -/
abbrev blank : Fin cfg0.N → S32x114688.Idx → Elt F .f32 := fun _ _ => Scalar.ofBits .f32 0#32

-- What the proof data say the body leaves in the result's buffer at each point: a parameter, so that a frame can
-- leave it blank and a value proof can name it.
variable (out3 : Fin cfg0.N → S32x114688.Idx → Elt F .f32)

/-- The proof data of the pipeline on core `c`: the arrays as the region finds them; after the body at point
    `t` the block's buffer at the block of `xᵀ` on the columns inside the array (a word of the proof's choosing
    beyond them: nothing reads it), the weights' and the bias's buffers at their arrays, and the result's buffer at `out3 t`. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => out3 t
  Φ _ := Pipeline.ΦA spec0 c
  q _ := fullShare
  owed _ := 0

theorem A_eq (c : Dev nD) (w : Fin cfg0.W) : (dats m out3 0 c).A w = V m c (Pipeline.arrRef spec0 w) := by
  dsimp only [dats]

theorem after0_0 (c : Dev nD) (t : Fin cfg0.N) :
    (dats m out3 0 c).after 0 t = win0_0.fill (grid0.coords t) (fun _ => Scalar.ofBits .f32 0#32) (iblk m c 0 t) := by dsimp only [dats]
theorem after0_1 (c : Dev nD) (t : Fin cfg0.N) : (dats m out3 0 c).after 1 t = iblk m c 1 t := by dsimp only [dats]
theorem after0_2 (c : Dev nD) (t : Fin cfg0.N) : (dats m out3 0 c).after 2 t = iblk m c 2 t := by dsimp only [dats]
theorem after0_3 (c : Dev nD) (t : Fin cfg0.N) : (dats m out3 0 c).after 3 t = out3 t := by dsimp only [dats]

/-- The block's buffer is fetched at every point: the body finds the block of `xᵀ` on the columns inside the array
    and, beyond them, whatever the buffer held. -/
theorem before0_0 (c : Dev nD) (t : Fin cfg0.N) (d) :
    (dats m out3 0 c).before 0 t d = win0_0.fill (grid0.coords t) d (iblk m c 0 t) := by
  unfold Dat.before; rw [if_pos (fetch0_0 t)]
  unfold Dat.fetched Dat.blockOf iblk; rw [A_eq]
/-- The weights' and the bias's buffers hold their arrays at every point, fetched there or not. -/
theorem before0_1 (c : Dev nD) (t : Fin cfg0.N) (d) : (dats m out3 0 c).before 1 t d = iblk m c 1 t :=
  before0_1_of m (dats m out3 0 c) (A_eq m out3 c 1) (after0_1 m out3 c) t d
theorem before0_2 (c : Dev nD) (t : Fin cfg0.N) (d) : (dats m out3 0 c).before 2 t d = iblk m c 2 t :=
  before0_2_of m (dats m out3 0 c) (A_eq m out3 c 2) (after0_2 m out3 c) t d

/-- The result's buffer is written back at every point: the body finds it at contents nothing names. -/
theorem before0_3 (c : Dev nD) (t : Fin cfg0.N) (d) : (dats m out3 0 c).before 3 t d = d :=
  (dats m out3 0 c).before_out_reset 3 rfl t
    (by rcases Nat.eq_zero_or_pos t.val with h | h
        · exact .inl h
        · exact .inr ⟨by omega, flush0_3 _⟩) d

/-! ## The body obligation, the result's buffer forgotten -/

/-- What the body is called with at point `t`, -/
def bodyPre (c : Dev nD) (t : Fin cfg0.N) : sProp 𝕄 :=
  iprop((dats m out3 0 c).Φ t.castSucc ∗ (dats m out3 0 c).owesAt () t.castSucc
    ∗ (∃ d, owns (c : Thread nD τ) (st0_0 t) fullShare ((dats m out3 0 c).before 0 t d))
    ∗ (∃ d, owns (c : Thread nD τ) (st0_1 t) fullShare ((dats m out3 0 c).before 1 t d))
    ∗ (∃ d, owns (c : Thread nD τ) (st0_2 t) fullShare ((dats m out3 0 c).before 2 t d))
    ∗ (∃ X, owns (c : Thread nD τ) (st0_3 t) fullShare X))

/-- and what it returns: the block's buffer stated on the columns inside the array only. -/
def bodyPost (c : Dev nD) (t : Fin cfg0.N) : sProp 𝕄 :=
  iprop((dats m out3 0 c).Φ t.succ ∗ (dats m out3 0 c).owesAt () t.succ
    ∗ (∃ d, owns (c : Thread nD τ) (st0_0 t) fullShare
        ((cfg0.win 0).fill (cfg0.grid.coords t) d ((cfg0.win 0).cut (cfg0.grid.coords t) ((dats m out3 0 c).after 0 t))))
    ∗ owns (c : Thread nD τ) (st0_1 t) fullShare ((dats m out3 0 c).after 1 t)
    ∗ owns (c : Thread nD τ) (st0_2 t) fullShare ((dats m out3 0 c).after 2 t)
    ∗ (∃ X, owns (c : Thread nD τ) (st0_3 t) fullShare X))

/-- The body at any point: the three input buffers hold what `before0_W` says, so `sound_kernel` applies; they are
    left as found, which on the columns inside the array is the block again. -/
theorem sound_body (c : Dev nD) (t : Fin cfg0.N) :
    bodyPre m out3 c t ⊢ wp frame (wpE (defs₀ (F := F)) Variants.none c none) Set.univ (bodyAt0 t) (fun _ => bodyPost m out3 c t) := by
  unfold bodyPre bodyPost bodyAt0
  simp only [before0_0, before0_1, before0_2]
  rw [show (dats m out3 0 c).Φ t.succ = (dats m out3 0 c).Φ t.castSucc from rfl,
    show (dats m out3 0 c).owesAt () t.succ = (dats m out3 0 c).owesAt () t.castSucc from rfl,
    after0_0, after0_1, after0_2]
  iintro ⟨HΦ, Ho, ⟨%d0, H0⟩, ⟨%d1, H1⟩, ⟨%d2, H2⟩, ⟨%d3, H3⟩⟩
  iapply (sound_kernel c Set.univ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win0_0.cut (grid0.coords t) (win0_0.fill (grid0.coords t) (fun _ => Scalar.ofBits .f32 0#32) (iblk m c 0 t)) = iblk m c 0 t :=
    win0_0.cut_fill _ _ _
  isplitl [H0]
  · iexists d0
    change _ ⊢ owns (c : Thread nD τ) (st0_0 t) fullShare (win0_0.fill (grid0.coords t) d0
      (win0_0.cut (grid0.coords t) (win0_0.fill (grid0.coords t) (fun _ => Scalar.ofBits .f32 0#32) (iblk m c 0 t))))
    rw [hx]; try iexact H0
  isplitl [H1]; · iexact H1
  isplitl [H2]; · iexact H2
  iexists _; iexact H3

/-- The library's body obligation at every point, the result's window forgotten. -/
theorem body_obligation (c : Dev nD) :
    BodyObligationLoose (dats (F := F) m out3 0 c) (defs₀ (F := F)) Variants.none () Set.univ forgets0 := fun t => by
  rw [bigSep_W0, bigSep_W0]
  exact sound_body m out3 c t

/-! ## The run and the frame -/

/-- The one buffer the line after the region writes: the result transposed back. -/
def T0 : Finset (Ref sig .tc) := {main_v2}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of the program terminates without a fault; the three input arrays of the region end
    as the region found them and every other unscoped buffer the last line does not write as it was at the region's
    entry. Of the result's array only that its blocks were overwritten. -/
theorem run_main : θ_run defs (onTc (τ := τ) (main (F := F))) (s₀ m ρ)
    (Pipeline.RDat.FramePostR (cfgs 0) (fun c => (dats m blank 0 c).toRForget forgets0) T0 (V m)) :=
  Pipeline.RDat.θ_run_frame_around_T cfgs (0 : Fin 1) launch0 defs₀ Variants.none (fun c => (dats m blank 0 c).toRForget forgets0) T0 m ρ main
    (hbody := fun c => (body_obligation m blank c).toRForget) (hshare := fun c => ((dats m blank 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m blank) (hΦ := fun _ _ => rfl)

/-- The frame: the program runs to the end, faults nowhere, and leaves its three arguments unchanged — the activations
    because no line writes them, the weights and the bias because the region only reads them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
      (Eq.mp (congrFun (((dats m blank 0 c).toRForget forgets0).ArrAt_in 1 rfl _) _) ((h c).1 1)).trans ((A_eq m blank c 1).trans (V_main_arg1 m c)),
      (Eq.mp (congrFun (((dats m blank 0 c).toRForget forgets0).ArrAt_in 2 rfl _) _) ((h c).1 2)).trans ((A_eq m blank c 2).trans (V_main_arg2 m c))⟩)
    (run_main m ρ)

end Cert.KernelIdeal.Body

end
-- ==== Proof.PayKI.lean ====
/-
  The body's payload read at an entry, on the extended reals.

  The payload is `Wᵀ · X + bᵀ` of the three loaded values: the matrix unit contracts the FIRST axis of the weights
  `W : [32, 32]` with the first axis of the block `X : [32, 114688]` into a zero accumulator, the bias row
  `b : [1, 32]` is transposed to a column and broadcast along the block's columns, and the two are added. So entry
  `(o, q)` is `Σ_k W[k, o] · X[k, q] + b[0, o]`: column `q` of the result reads column `q` of `X` and no other.
-/
import proofs.«137628_g37271726195534_cont_8to1_b_778_25_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The contraction's operand indices -/

theorem lhs_0 (j : S32x114688.Idx) (q : dot_S32x32_S32x114688_S32x114688_0_0_1_1_n_n.contr.Idx) :
    (dot_S32x32_S32x114688_S32x114688_0_0_1_1_n_n.lhsIdx j q 0).val = (q ⟨0, by decide⟩).val :=
  dot_S32x32_S32x114688_S32x114688_0_0_1_1_n_n.lhsIdx_val_of_single rfl j q
theorem lhs_1 (j : S32x114688.Idx) (q : dot_S32x32_S32x114688_S32x114688_0_0_1_1_n_n.contr.Idx) :
    (dot_S32x32_S32x114688_S32x114688_0_0_1_1_n_n.lhsIdx j q 1).val = (j 0).val := by
  unfold DotDims.lhsIdx
  rw [dif_neg (show ¬(1 : Fin S32x32.rank) ∈ dot_S32x32_S32x114688_S32x114688_0_0_1_1_n_n.lhsBatch by decide), dif_pos (show (1 : Fin S32x32.rank) ∈ dot_S32x32_S32x114688_S32x114688_0_0_1_1_n_n.lhsNonContracting by decide)]
  rfl
theorem rhs_0 (j : S32x114688.Idx) (q : dot_S32x32_S32x114688_S32x114688_0_0_1_1_n_n.contr.Idx) :
    (dot_S32x32_S32x114688_S32x114688_0_0_1_1_n_n.rhsIdx j q 0).val = (q ⟨0, by decide⟩).val :=
  dot_S32x32_S32x114688_S32x114688_0_0_1_1_n_n.rhsIdx_val_of_single rfl j q
theorem rhs_1 (j : S32x114688.Idx) (q : dot_S32x32_S32x114688_S32x114688_0_0_1_1_n_n.contr.Idx) :
    (dot_S32x32_S32x114688_S32x114688_0_0_1_1_n_n.rhsIdx j q 1).val = (j 1).val := by
  unfold DotDims.rhsIdx
  rw [dif_neg (show ¬(1 : Fin S32x114688.rank) ∈ dot_S32x32_S32x114688_S32x114688_0_0_1_1_n_n.rhsBatch by decide), dif_pos (show (1 : Fin S32x114688.rank) ∈ dot_S32x32_S32x114688_S32x114688_0_0_1_1_n_n.rhsNonContracting by decide)]
  rfl

/-- The matrix product into the zero accumulator, at entry `(o, q)`: the sum over the contracted axis of
    `W[k, o] · X[k, q]`. -/
theorem product_apply (W : FVec Ideal S32x32 .f32) (X : FVec Ideal S32x114688 .f32) (o : Fin 32) (q : Fin 114688) :
    FloatOps.matmul dot_S32x32_S32x114688_S32x114688_0_0_1_1_n_n none W X (constant (F := Ideal) S32x114688 .f32 0x00000000#32) (ix2 o q)
      = ∑ k : Fin 32, W (ix2 k o) * X (ix2 k q) := by
  rw [Ideal.matmul_constant_zero_apply, ← Equiv.sum_comp (ValueIdx.contrEquiv1 dot_S32x32_S32x114688_S32x114688_0_0_1_1_n_n 32 rfl rfl).symm]
  refine Finset.sum_congr rfl fun k _ => ?_
  have hk := ValueIdx.contrEquiv1_symm_val dot_S32x32_S32x114688_S32x114688_0_0_1_1_n_n 32 rfl rfl k
  have el : dot_S32x32_S32x114688_S32x114688_0_0_1_1_n_n.lhsIdx (ix2 o q) ((ValueIdx.contrEquiv1 dot_S32x32_S32x114688_S32x114688_0_0_1_1_n_n 32 rfl rfl).symm k) = ix2 k o := funext fun a => Fin.ext (by
    match a with
    | ⟨0, _⟩ => exact (lhs_0 _ _).trans hk
    | ⟨1, _⟩ => exact lhs_1 _ _)
  have er : dot_S32x32_S32x114688_S32x114688_0_0_1_1_n_n.rhsIdx (ix2 o q) ((ValueIdx.contrEquiv1 dot_S32x32_S32x114688_S32x114688_0_0_1_1_n_n 32 rfl rfl).symm k) = ix2 k q := funext fun a => Fin.ext (by
    match a with
    | ⟨0, _⟩ => exact (rhs_0 _ _).trans hk
    | ⟨1, _⟩ => exact rhs_1 _ _)
  rw [el, er]

/-- A column `[32, 1]` broadcast along 114688 columns reads, at `(o, q)`, the column's entry `o`. -/
theorem column_apply {α : Type} (v : S32x1.Idx → α) (h : S32x1.Broadcasts S32x114688) (o : Fin 32) (q : Fin 114688) :
    broadcastTo S32x114688 v h (ix2 o q) = v (ix2 o (0 : Fin 1)) := by
  refine broadcastTo_apply v h (ix2 o q) (ix2 o (0 : Fin 1)) fun ax => ?_
  match ax with
  | ⟨0, _⟩ => show o.val = if (32 : Nat) = 1 then 0 else o.val; rw [if_neg (by decide)]
  | ⟨1, _⟩ => show (0 : Nat) = if (1 : Nat) = 1 then 0 else q.val; rw [if_pos rfl]

/-- The payload at entry `(o, q)`. -/
theorem pay_apply (W : Vec Ideal S32x32 .f32) (X : Vec Ideal S32x114688 .f32) (B : Vec Ideal S1x32 .f32) (o : Fin 32) (q : Fin 114688) :
    k0_pay1 (F := Ideal) W X B (ix2 o q) = (∑ k : Fin 32, W (ix2 k o) * X (ix2 k q)) + B (ix2 (0 : Fin 1) o) := by
  unfold k0_pay1
  show FloatOps.matmul dot_S32x32_S32x114688_S32x114688_0_0_1_1_n_n none W (shapeCast S32x114688 X shapeCasts_S32x114688_S32x114688) (constant (F := Ideal) S32x114688 .f32 0x00000000#32) (ix2 o q)
      + broadcastTo S32x114688 (transpose S32x1 [1, 0] B transposes_S1x32_p1_0_S32x1) broadcasts_S32x1_S32x114688 (ix2 o q) = _
  rw [shapeCast_self, product_apply, column_apply, transpose_ix2_apply]

end Cert.KernelIdeal.Pay

end
-- ==== Proof.Spec.lean ====
/-
  The pointwise linear layer as one function of its three arrays, written twice.

  `lin A W b` is the layer on activations `A : [1000000, 32]` stored row by row: entry `(n, o)` is
  `Σ_k A[n, k] · W[k, o] + b[0, o]`. `linT Xt W b` is the same layer on the activations stored column by
  column, `Xt : [32, 1000000]`: entry `(o, n)` is `Σ_k W[k, o] · Xt[k, n] + b[0, o]`. When `Xt` is the transpose
  of `A` the second is the transpose of the first: term by term the products differ only in the order of their
  two factors, and multiplication of extended reals is commutative — no finiteness is needed.
-/
import Idealize.ShloMosaic.PureOps.Ideal
import Idealize.ShloMosaic.Lib.ValueIdx

noncomputable section

namespace Cert.Spec

open Idealize.ShloMosaic Idealize.ShloMosaic.ValueIdx
open scoped BigOperators

/-- Entry `(n, o)` of the layer on row-major activations. -/
def linAt (A : (⟨2, ![1000000, 32]⟩ : Shape).Idx → EReal) (W : (⟨2, ![32, 32]⟩ : Shape).Idx → EReal)
    (B : (⟨2, ![1, 32]⟩ : Shape).Idx → EReal) (n : Fin 1000000) (o : Fin 32) : EReal :=
  (∑ k : Fin 32, A (ix2 n k) * W (ix2 k o)) + B (ix2 (0 : Fin 1) o)

/-- The layer on row-major activations: `A · W + b`, the bias row added to every row. -/
def lin (A : (⟨2, ![1000000, 32]⟩ : Shape).Idx → EReal) (W : (⟨2, ![32, 32]⟩ : Shape).Idx → EReal)
    (B : (⟨2, ![1, 32]⟩ : Shape).Idx → EReal) : (⟨2, ![1000000, 32]⟩ : Shape).Idx → EReal :=
  fun i => linAt A W B (i 0) (i 1)

/-- Entry `(o, n)` of the layer on column-major activations. -/
def linTAt (Xt : (⟨2, ![32, 1000000]⟩ : Shape).Idx → EReal) (W : (⟨2, ![32, 32]⟩ : Shape).Idx → EReal)
    (B : (⟨2, ![1, 32]⟩ : Shape).Idx → EReal) (o : Fin 32) (n : Fin 1000000) : EReal :=
  (∑ k : Fin 32, W (ix2 k o) * Xt (ix2 k n)) + B (ix2 (0 : Fin 1) o)

/-- The layer on column-major activations: `Wᵀ · Xt + bᵀ`, the bias column added to every column. -/
def linT (Xt : (⟨2, ![32, 1000000]⟩ : Shape).Idx → EReal) (W : (⟨2, ![32, 32]⟩ : Shape).Idx → EReal)
    (B : (⟨2, ![1, 32]⟩ : Shape).Idx → EReal) : (⟨2, ![32, 1000000]⟩ : Shape).Idx → EReal :=
  fun j => linTAt Xt W B (j 0) (j 1)

/-- On transposed activations the column-major layer is the row-major layer read across: each product with its
    factors exchanged. -/
theorem linTAt_of_transposed (A : (⟨2, ![1000000, 32]⟩ : Shape).Idx → EReal) (Xt : (⟨2, ![32, 1000000]⟩ : Shape).Idx → EReal)
    (W : (⟨2, ![32, 32]⟩ : Shape).Idx → EReal) (B : (⟨2, ![1, 32]⟩ : Shape).Idx → EReal)
    (hXt : ∀ (k : Fin 32) (n : Fin 1000000), Xt (ix2 k n) = A (ix2 n k)) (o : Fin 32) (n : Fin 1000000) :
    linTAt Xt W B o n = linAt A W B n o := by
  unfold linTAt linAt
  refine congrArg (· + B (ix2 (0 : Fin 1) o)) (Finset.sum_congr rfl fun k _ => ?_)
  rw [hXt k n, mul_comm]

end Cert.Spec

end
-- ==== Proof.ValueKI.lean ====
/-
  What the idealized kernel computes, as one function of its three arguments.

  The activations are transposed on the host to `xᵀ : [32, 1000000]`. At grid point `t` the block's buffer holds
  columns `114688·t …` of `xᵀ` — all 114688 of them at points 0‥7, the first 82496 at point 8, where the rest of
  the buffer holds words nothing names. The body's payload at entry `(o, q)` reads column `q` of the block and no
  other, so on the columns inside the array what the body leaves in the result's buffer is the block of
  `linT xᵀ W b` there, whatever the unnamed words are; the write-back writes exactly those columns. The nine
  blocks' columns are `0 … 999999`: the result array ends at `linT xᵀ W b`, and the host transposes it back to
  `lin x W b`.
-/
import proofs.«137628_g37271726195534_cont_8to1_b_778_25_alg».proof.Proof.BodyKI
import proofs.«137628_g37271726195534_cont_8to1_b_778_25_alg».proof.Proof.PayKI
import proofs.«137628_g37271726195534_cont_8to1_b_778_25_alg».proof.Proof.Spec
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided over the nine points -/

/-- Block `t` of `xᵀ` and of the result starts at row 0 and column `114688·t`; it has all 32 rows and, inside the
    array, 114688 columns before the last point and 82496 at it. The weights' and the bias's blocks are their arrays. -/
theorem idx_facts : ∀ t : Fin cfg0.N,
    win0_0.index t (0 : Fin 2) = 0 ∧ win0_0.index t (1 : Fin 2) = t.val
    ∧ win0_3.index t (0 : Fin 2) = 0 ∧ win0_3.index t (1 : Fin 2) = t.val
    ∧ win0_0.xsize (grid0.coords t) (0 : Fin 2) = 32 ∧ win0_3.xsize (grid0.coords t) (0 : Fin 2) = 32
    ∧ ((t.val < 8 ∧ win0_0.xsize (grid0.coords t) (1 : Fin 2) = 114688 ∧ win0_3.xsize (grid0.coords t) (1 : Fin 2) = 114688)
      ∨ (t.val = 8 ∧ win0_0.xsize (grid0.coords t) (1 : Fin 2) = 82496 ∧ win0_3.xsize (grid0.coords t) (1 : Fin 2) = 82496))
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The blocks read at an entry -/

/-- The weights' block is the weight array. -/
theorem wblk_apply (c : Dev nD) (t : Fin cfg0.N) (k o : Fin 32) :
    iblk m c 1 t (ix2 k o) = V m c main_arg1 (ix2 k o) := by
  obtain ⟨-, -, -, -, -, -, -, e10, e11, -, -⟩ := idx_facts t
  show V m c main_arg1 (((cfg0.win 1).blk t).view.emb (ix2 k o)) = _
  refine congrArg _ (funext fun a => Fin.ext ?_)
  match a with
  | ⟨0, _⟩ => show win0_1.index t (0 : Fin 2) * 32 + 1 * k.val = k.val; omega
  | ⟨1, _⟩ => show win0_1.index t (1 : Fin 2) * 32 + 1 * o.val = o.val; omega

/-- The bias's block is the bias row. -/
theorem bblk_apply (c : Dev nD) (t : Fin cfg0.N) (o : Fin 32) :
    iblk m c 2 t (ix2 (0 : Fin 1) o) = V m c main_arg2 (ix2 (0 : Fin 1) o) := by
  obtain ⟨-, -, -, -, -, -, -, -, -, e20, e21⟩ := idx_facts t
  show V m c main_arg2 (((cfg0.win 2).blk t).view.emb (ix2 (0 : Fin 1) o)) = _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 32 + 1 * o.val = o.val; omega

/-- The block's buffer, on a column inside the array, holds that column of `xᵀ` — whatever fills the buffer beyond
    the array's end. -/
theorem xblk_apply (c : Dev nD) (t : Fin cfg0.N) (d : S32x114688.Idx → Elt Ideal .f32) (k : Fin 32) (q : Fin 114688)
    (hq : t.val * 114688 + q.val < 1000000) :
    win0_0.fill (grid0.coords t) d (iblk m c 0 t) (ix2 k q) = V m c main_v0 (ix2 k (⟨t.val * 114688 + q.val, hq⟩ : Fin 1000000)) := by
  obtain ⟨e00, e01, -, -, x00, -, x1, -⟩ := idx_facts t
  have hm : win0_0.moved (grid0.coords t) (ix2 k q) = true := (win0_0.moved_iff _ _).mpr fun a => by
    match a with
    | ⟨0, _⟩ => show k.val < win0_0.xsize (grid0.coords t) (0 : Fin 2); rw [x00]; exact k.isLt
    | ⟨1, _⟩ =>
      show q.val < win0_0.xsize (grid0.coords t) (1 : Fin 2)
      have := q.isLt
      rcases x1 with ⟨-, h, -⟩ | ⟨h8, h, -⟩ <;> rw [h] <;> omega
  unfold Window.fill; rw [dif_pos hm]
  show V m c main_v0 (((cfg0.win 0).blk t).view.emb _) = _
  refine congrArg _ (funext fun a => Fin.ext ?_)
  match a with
  | ⟨0, _⟩ => show win0_0.index t (0 : Fin 2) * 32 + 1 * k.val = k.val; omega
  | ⟨1, _⟩ => show win0_0.index t (1 : Fin 2) * 114688 + 1 * q.val = t.val * 114688 + q.val; rw [e01]; omega

/-! ## What the region leaves in the result -/

/-- The region's result as one array: the column-major layer of `xᵀ`, the weights and the bias as the region finds them. -/
def GT (c : Dev nD) : Buf (Elt Ideal) ((c : Thread nD τ).loc main_v1) :=
  Cert.Spec.linT (V m c main_v0) (V m c main_arg1) (V m c main_arg2)

/-- What the proof data say the body leaves in the result's buffer at point `t`: block `t` of `GT` on the columns
    inside the array (a word of the proof's choosing beyond them: nothing reads it). -/
def vout (c : Dev nD) : Fin cfg0.N → S32x114688.Idx → Elt Ideal .f32 :=
  fun t => win0_3.fill (grid0.coords t) (fun _ => Scalar.ofBits (F := Ideal) .f32 0#32) ((win0_3.blk t).view.read (Elt Ideal) (GT m c))

/-- On the columns inside the array, what the body stores is block `t` of `GT`, whatever filled the block's buffer
    beyond the array's end: entry `(o, q)` of the payload reads column `q` of the buffer alone, which is column
    `114688·t + q` of `xᵀ`. -/
theorem cut_stored (c : Dev nD) (t : Fin cfg0.N) (d : S32x114688.Idx → Elt Ideal .f32) :
    win0_3.cut (grid0.coords t) (stored (win0_0.fill (grid0.coords t) d (iblk m c 0 t)) (iblk m c 1 t) (iblk m c 2 t))
      = (win0_3.blk t).view.read (Elt Ideal) (GT m c) := by
  rw [stored_eq]
  obtain ⟨-, -, e30, e31, -, x30, x1, -⟩ := idx_facts t
  funext y
  have hy0 : (y 0).val < 32 := by
    have h : (y 0).val < win0_3.xsize (grid0.coords t) (0 : Fin 2) := (y 0).isLt
    rwa [x30] at h
  have hy1' : (y 1).val < win0_3.xsize (grid0.coords t) (1 : Fin 2) := (y 1).isLt
  have hy1 : (y 1).val < 114688 ∧ t.val * 114688 + (y 1).val < 1000000 := by
    rcases x1 with ⟨h8, -, h⟩ | ⟨h8, -, h⟩ <;> rw [h] at hy1' <;> omega
  have hx : win0_3.xinj (grid0.coords t) y = ix2 (⟨(y 0).val, hy0⟩ : Fin 32) (⟨(y 1).val, hy1.1⟩ : Fin 114688) :=
    funext fun a => by match a with | ⟨0, _⟩ => rfl | ⟨1, _⟩ => rfl
  have he : (win0_3.blk t).view.emb y = ix2 (⟨(y 0).val, hy0⟩ : Fin 32) (⟨t.val * 114688 + (y 1).val, hy1.2⟩ : Fin 1000000) :=
    funext fun a => Fin.ext (by
      match a with
      | ⟨0, _⟩ => show win0_3.index t (0 : Fin 2) * 32 + 1 * (y 0).val = (y 0).val; omega
      | ⟨1, _⟩ => show win0_3.index t (1 : Fin 2) * 114688 + 1 * (y 1).val = t.val * 114688 + (y 1).val; rw [e31]; omega)
  show k0_pay1 (F := Ideal) (iblk m c 1 t) (win0_0.fill (grid0.coords t) d (iblk m c 0 t)) (iblk m c 2 t) (win0_3.xinj (grid0.coords t) y)
    = GT m c ((win0_3.blk t).view.emb y)
  rw [hx, he, Pay.pay_apply, bblk_apply]
  show _ = Cert.Spec.linTAt (V m c main_v0) (V m c main_arg1) (V m c main_arg2) _ _
  unfold Cert.Spec.linTAt
  refine congrArg (· + _) (Finset.sum_congr rfl fun k _ => ?_)
  rw [wblk_apply, xblk_apply m c t d k _ hy1.2]

/-! ## The proof data that name the result, and the body obligation -/

/-- The proof data with the result's buffer named: after the body at point `t`, block `t` of `GT` on the columns
    inside the array. -/
abbrev vdats : (p : Fin 1) → (c : Dev nD) → Dat τ (Elt Ideal) Unit ℕ (UR sig nD τ) ℕ cfg0 c :=
  fun p c => dats m (vout m c) p c

/-- What the body is called with at point `t`, -/
def vPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d)))

/-- and what it returns: the two clipped windows' buffers stated on the columns inside the array only. -/
def vPost (c : Dev nD) (t : Fin cfg0.N) : sProp 𝕄 :=
  iprop((vdats m 0 c).Φ t.succ ∗ (vdats m 0 c).owesAt () t.succ
    ∗ (∃ d, owns (c : Thread nD τ) (st0_0 t) fullShare
        ((cfg0.win 0).fill (cfg0.grid.coords t) d ((cfg0.win 0).cut (cfg0.grid.coords t) ((vdats m 0 c).after 0 t))))
    ∗ owns (c : Thread nD τ) (st0_1 t) fullShare ((vdats m 0 c).after 1 t)
    ∗ owns (c : Thread nD τ) (st0_2 t) fullShare ((vdats m 0 c).after 2 t)
    ∗ (∃ d, owns (c : Thread nD τ) (st0_3 t) fullShare
        ((cfg0.win 3).fill (cfg0.grid.coords t) d ((cfg0.win 3).cut (cfg0.grid.coords t) ((vdats m 0 c).after 3 t)))))

/-- The body at any point: it leaves the inputs as found and, in the result's buffer, contents whose columns inside
    the array are block `t` of `GT` (`cut_stored`). -/
theorem vsound_body (c : Dev nD) (t : Fin cfg0.N) :
    vPre m c t ⊢ wp frame (wpE (defs₀ (F := Ideal)) Variants.none c none) Set.univ (bodyAt0 t) (fun _ => vPost m c t) := by
  unfold vPre vPost bodyAt0
  simp only [before0_0, before0_1, before0_2, before0_3]
  rw [show (vdats m 0 c).Φ t.succ = (vdats m 0 c).Φ t.castSucc from rfl,
    show (vdats m 0 c).owesAt () t.succ = (vdats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win0_0.cut (grid0.coords t) (win0_0.fill (grid0.coords t) (fun _ => Scalar.ofBits (F := Ideal) .f32 0#32) (iblk m c 0 t)) = iblk m c 0 t :=
    win0_0.cut_fill _ _ _
  have hr : win0_3.fill (grid0.coords t) (stored (win0_0.fill (grid0.coords t) d0 (iblk m c 0 t)) (iblk m c 1 t) (iblk m c 2 t))
      (win0_3.cut (grid0.coords t) (vout m c t))
      = stored (win0_0.fill (grid0.coords t) d0 (iblk m c 0 t)) (iblk m c 1 t) (iblk m c 2 t) := by
    rw [show win0_3.cut (grid0.coords t) (vout m c t) = (win0_3.blk t).view.read (Elt Ideal) (GT m c) from win0_3.cut_fill _ _ _,
      ← cut_stored m c t d0, Window.fill_cut]
  isplitl [H0]
  · iexists d0
    change _ ⊢ owns (c : Thread nD τ) (st0_0 t) fullShare (win0_0.fill (grid0.coords t) d0
      (win0_0.cut (grid0.coords t) (win0_0.fill (grid0.coords t) (fun _ => Scalar.ofBits (F := Ideal) .f32 0#32) (iblk m c 0 t))))
    rw [hx]; try iexact H0
  isplitl [H1]; · iexact H1
  isplitl [H2]; · iexact H2
  iexists (stored (win0_0.fill (grid0.coords t) d0 (iblk m c 0 t)) (iblk m c 1 t) (iblk m c 2 t))
  change _ ⊢ owns (c : Thread nD τ) (st0_3 t) fullShare (win0_3.fill (grid0.coords t)
    (stored (win0_0.fill (grid0.coords t) d0 (iblk m c 0 t)) (iblk m c 1 t) (iblk m c 2 t)) (win0_3.cut (grid0.coords t) (vout m c t)))
  rw [hr]; try iexact H3

/-- The library's body obligation at every point, every window named. -/
theorem vbody_obligation (c : Dev nD) :
    BodyObligationLoose (vdats m 0 c) (defs₀ (F := Ideal)) Variants.none () Set.univ := fun t => by
  rw [bigSep_W0, bigSep_W0]
  exact vsound_body m c t

end Cert.KernelIdeal.Val

end
-- ==== Proof.RunKI.lean ====
/-
  The idealized kernel's run, with its result named.

  The nine blocks' columns inside the array are `0 … 999999`, each column in the block of the point
  `column / 114688`; what each point writes back is its block of `GT`; so the result array ends at `GT`. The host
  then transposes it: entry `(n, o)` of the program's result is entry `(o, n)` of `GT`, the column-major layer of
  the transposed activations, which is the row-major layer `lin` of the activations themselves.
-/
import proofs.«137628_g37271726195534_cont_8to1_b_778_25_alg».proof.Proof.ValueKI

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The result array after the region -/

/-- What point `t` writes back is block `t` of `GT`. -/
theorem flushed3_eq (c : Dev nD) (t : Fin cfg0.N) :
    (vdats m 0 c).flushed 3 t = ((cfg0.win 3).blk t).view.read (Elt Ideal) (GT m c) := by
  show (cfg0.win 3).cut (grid0.coords t) ((vdats m 0 c).after 3 t) = _
  rw [after0_3]
  exact win0_3.cut_fill _ _ _

/-- An entry of the result array is in point `t`'s block iff its row and column are in the block's part inside the array. -/
theorem mem_blk3 (t : Fin cfg0.N) (i : S32x1000000.Idx) :
    i ∈ ((cfg0.win 3).blk t).view.set ↔ ∀ a : Fin 2, win0_3.index t a * S32x114688.size a ≤ (i a).val
      ∧ (i a).val < win0_3.index t a * S32x114688.size a + win0_3.xsize (grid0.coords t) a := by
  show i ∈ ((View.whole main_v1).slice (win0_3.rect t)).set ↔ _
  rw [View.set_slice_whole, Rect.mem_set_unit]
  exact Iff.rfl

/-- Every entry is in some point's block: column `n` in that of point `n / 114688`. -/
theorem cover3 (i : S32x1000000.Idx) :
    ∃ t : Fin cfg0.N, (cfg0.win 3).flush t = true ∧ i ∈ ((cfg0.win 3).blk t).view.set := by
  have h0 : (i 0).val < 32 := (i 0).isLt
  have h1 : (i 1).val < 1000000 := (i 1).isLt
  have hN : grid0.N = 9 := N_0
  have ht : (i 1).val / 114688 < cfg0.N := by show _ < grid0.N; rw [hN]; omega
  refine ⟨⟨(i 1).val / 114688, ht⟩, flush0_3 _, ?_⟩
  rw [mem_blk3]
  obtain ⟨-, -, e30, e31, -, x30, x1, -⟩ := idx_facts ⟨(i 1).val / 114688, ht⟩
  intro a
  match a with
  | ⟨0, _⟩ =>
    show win0_3.index ⟨(i 1).val / 114688, ht⟩ (0 : Fin 2) * 32 ≤ (i 0).val
      ∧ (i 0).val < win0_3.index ⟨(i 1).val / 114688, ht⟩ (0 : Fin 2) * 32 + win0_3.xsize (grid0.coords ⟨(i 1).val / 114688, ht⟩) (0 : Fin 2)
    rw [e30, x30]; omega
  | ⟨1, _⟩ =>
    show win0_3.index ⟨(i 1).val / 114688, ht⟩ (1 : Fin 2) * 114688 ≤ (i 1).val
      ∧ (i 1).val < win0_3.index ⟨(i 1).val / 114688, ht⟩ (1 : Fin 2) * 114688 + win0_3.xsize (grid0.coords ⟨(i 1).val / 114688, ht⟩) (1 : Fin 2)
    rw [e31]
    have hv : (⟨(i 1).val / 114688, ht⟩ : Fin cfg0.N).val = (i 1).val / 114688 := rfl
    rcases x1 with ⟨h8, -, h⟩ | ⟨h8, -, h⟩ <;> rw [h] <;> omega

/-- The result array after the region is `GT`. -/
theorem final3 (c : Dev nD) : (vdats m 0 c).arrAt 3 cfg0.N = GT m c :=
  (vdats m 0 c).arrAt_eq_of_cover 3 (GT m c) (fun t _ => flushed3_eq m c t) cover3

/-! ## The run -/

set_option backward.isDefEq.respectTransparency.types false in
/-- Every weakly fair execution of the program terminates without a fault, with every array of the region at what the
    proof data compute and every other unscoped buffer at what the line after the region leaves. -/
theorem vrun_main : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around cfgs (vdats m) (0 : Fin 1) launch0 defs₀ Variants.none m ρ main
    (hbody := fun c => vbody_obligation m c) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := fun c w => A_eq m (vout m c) c w) (hΦ := fun _ _ => rfl)

/-! ## The program's result -/

/-- The region finds the activations transposed. -/
theorem xT_apply (c : Dev nD) (k : Fin 32) (n : Fin 1000000) :
    V m c main_v0 (ix2 k n) = m ((c : Thread nD τ).loc main_arg0) (ix2 n k) := by
  have e : (V m c main_v0 : S32x1000000.Idx → EReal)
      = transpose S32x1000000 [1, 0] (m ((c : Thread nD τ).loc main_arg0)) transposes_S1000000x32_S32x1000000_1_0 := by
    show StableHlo.after hostOps0 (fun b => m (c, b)) (Proc.devRef .tc main_v0) = _
    after_results
  rw [e, transpose_ix2_apply]

/-- After the last line the program's result is the row-major layer of its three arguments. -/
theorem result_eq (c : Dev nD) :
    Pipeline.afterTail₀ cfgs (vdats m) 0 (V0 m) [hostOps1] c main_v2
      = Cert.Spec.lin (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [(Pipeline.withArrays_arr spec0 launch0.win.arr_inj c _ _ 3).trans (final3 m c)]
  funext i
  obtain ⟨n, o, rfl⟩ : ∃ (n : Fin 1000000) (o : Fin 32), i = ix2 n o := ⟨i 0, i 1, eq_ix2 i⟩
  rw [transpose_ix2_apply]
  show Cert.Spec.linTAt (V m c main_v0) (V m c main_arg1) (V m c main_arg2) o n = Cert.Spec.linAt _ _ _ n o
  rw [V_main_arg1, V_main_arg2]
  exact Cert.Spec.linTAt_of_transposed _ _ _ _ (xT_apply m c) o n

/-- The idealized kernel's run: the result is `lin` of the arguments, the arguments unchanged. -/
theorem run : θ_run defs (onTc (τ := τ) (main (F := Ideal))) ⟨m, fun _ => 0, ρ⟩ (fun r => ∀ c : Dev nD,
      r.2.mem ((c.tc : Thread nD τ).loc main_v2)
        = Cert.Spec.lin (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (vdats m) c),
      ((h c).1 1).trans (((vdats m 0 c).arrAt_in 1 rfl _).trans ((A_eq m (vout m c) c 1).trans (V_main_arg1 m c))),
      ((h c).1 2).trans (((vdats m 0 c).arrAt_in 2 rfl _).trans ((A_eq m (vout m c) c 2).trans (V_main_arg2 m c)))⟩)
    (vrun_main m ρ)

end Cert.KernelIdeal.Val

end
-- ==== Proof.Ref.lean ====
/-
  The reference computes the row-major layer: its matrix product read at an entry is the sum over the
  contracted axis of activations times weights, its broadcast bias read at an entry is the bias row's entry of that
  column, and the two are added entry by entry.
-/
import proofs.«137628_g37271726195534_cont_8to1_b_778_25_alg».proof.Proof.Gen.ReferenceIdeal.Read
import proofs.«137628_g37271726195534_cont_8to1_b_778_25_alg».proof.Proof.Spec

noncomputable section

namespace Cert.ReferenceIdeal.RefValue

open Cert.ReferenceIdeal Cert.ReferenceIdeal.Read Idealize.ShloMosaic Idealize.ShloMosaic.ValueIdx

/-- The reference's result is `lin` of its three arguments. -/
theorem ref_eq (x0 : (⟨S1000000x32, .f32⟩ : BufTy).Contents (Elt Ideal)) (x1 : (⟨S32x32, .f32⟩ : BufTy).Contents (Elt Ideal))
    (x2 : (⟨S1x32, .f32⟩ : BufTy).Contents (Elt Ideal)) :
    val_main_v2 (F := Ideal) x0 x1 x2 = Cert.Spec.lin x0 x1 x2 := by
  funext i
  rw [val_main_v2_apply, val_main_v0_apply, val_main_v1_apply]
  have el : ∀ k : Fin 32, lidx_main_v0 i k = ix2 (i 0) k := fun k => funext fun a => by
    match a with | ⟨0, _⟩ => rfl | ⟨1, _⟩ => rfl
  have er : ∀ k : Fin 32, ridx_main_v0 i k = ix2 k (i 1) := fun k => funext fun a => by
    match a with | ⟨0, _⟩ => rfl | ⟨1, _⟩ => rfl
  have eb : idx_main_v1 i = ix2 (0 : Fin 1) (i 1) := funext fun a => by
    match a with | ⟨0, _⟩ => rfl | ⟨1, _⟩ => rfl
  simp only [el, er, eb]
  rfl

end Cert.ReferenceIdeal.RefValue

end
-- ==== Proof.lean ====
/-
  A pointwise linear layer, `out = x · W + b` with `x : [1000000, 32]`, `W : [32, 32]`, `b : [1, 32]`, computed by
  a kernel that works on the transposed activations against the plain reference.

  The kernel transposes `x` on the host, walks nine column blocks of `xᵀ` (114688 columns each, the ninth
  overhanging the array's end), stores `Wᵀ · block + bᵀ` for each, and transposes the result back. The reference
  multiplies and adds the bias row. On the extended reals both are `Σ_k x[n, k] · W[k, o] + b[0, o]` at entry
  `(n, o)` (Proof/Spec.lean): the kernel's products have their two factors in the other order, and multiplication
  is commutative; nothing needs the inputs to be finite.

  The three frames: the kernel's and its idealization's from the body's run on whole buffers, the result's buffer
  left unnamed (Proof/BodyK.lean, Proof/BodyKI.lean: beyond the array's end the ninth block's buffer holds words
  nothing names, and what the body computes from them is never written back); the reference's from its run.
  The idealization rewrote nothing, so `preserves` is trivial. `algebraic`: the idealized kernel's result array is
  `lin` of the arguments (Proof/PayKI.lean: the payload at an entry reads one column of the block; Proof/ValueKI.lean:
  on the columns inside the array each point writes back its block of the column-major layer; Proof/RunKI.lean:
  the blocks cover the array, and the host's transpose turns the column-major layer of `xᵀ` into the row-major layer
  of `x`), and so is the reference's (Proof/Ref.lean).
-/
import proofs.«137628_g37271726195534_cont_8to1_b_778_25_alg».proof.Defs
import proofs.«137628_g37271726195534_cont_8to1_b_778_25_alg».proof.Proof.BodyK
import proofs.«137628_g37271726195534_cont_8to1_b_778_25_alg».proof.Proof.BodyKI
import proofs.«137628_g37271726195534_cont_8to1_b_778_25_alg».proof.Proof.RunKI
import proofs.«137628_g37271726195534_cont_8to1_b_778_25_alg».proof.Proof.Ref
import proofs.«137628_g37271726195534_cont_8to1_b_778_25_alg».proof.Proof.Gen.Kernel
import proofs.«137628_g37271726195534_cont_8to1_b_778_25_alg».proof.Proof.Gen.KernelIdeal
import proofs.«137628_g37271726195534_cont_8to1_b_778_25_alg».proof.Proof.Gen.ReferenceIdeal
import proofs.«137628_g37271726195534_cont_8to1_b_778_25_alg».proof.Proof.Gen.Pre_finite_inputs
import proofs.«137628_g37271726195534_cont_8to1_b_778_25_alg».proof.Proof.Gen.ReferenceIdeal.Read
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the idealized kernel and the reference, run from memories that agree on the arguments, both end
    with the result at `lin` of the arguments. -/
theorem algebraic : Cert.algebraic_KernelIdeal_ReferenceIdeal := by
  intro m ρ m' ρ' _ hagree
  refine ⟨fun c => Cert.Spec.lin (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
